-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x36 : Shape := ⟨2, ![524288, 36]⟩
abbrev S_ : Shape := ⟨0, ![]⟩

class Facts : Prop where
  bcast_S_S524288x36 : S_.BroadcastsInDim S524288x36 (![] : Fin 0 → Fin S524288x36.rank)
  reducesTo_S524288x36_S_d0_1 : S524288x36.ReducesTo [0, 1] S_
  h_S_ : 0 < S_.numel

variable [Facts]

def fn {F : FTy → Type} [FloatOps F] (main_arg0 : FVec F S524288x36 .f32) (main_arg1 : FVec F S524288x36 .f32) : IVec S_ 1 :=
  let main_v0 : FVec F S524288x36 .f32 := Host.absf main_arg0
  let main_cst : FVec F S_ .f32 := constant S_ .f32 0x7F800000#32
  let main_v1 : FVec F S524288x36 .f32 := broadcastInDim S524288x36 ![] bcast_S_S524288x36 main_cst
  let main_v2 : IVec S524288x36 1 := cmpf .olt main_v0 main_v1
  let main_c : IVec S_ 1 := constantI S_ 1 1#1
  let main_v3 : IVec S_ 1 := (fun x v => Host.reduce IntOp.andi x v reducesTo_S524288x36_S_d0_1 h_S_) main_v2 main_c
  let main_v4 : FVec F S524288x36 .f32 := Host.absf main_arg1
  let main_cst_0 : FVec F S_ .f32 := constant S_ .f32 0x7F800000#32
  let main_v5 : FVec F S524288x36 .f32 := broadcastInDim S524288x36 ![] bcast_S_S524288x36 main_cst_0
  let main_v6 : IVec S524288x36 1 := cmpf .olt main_v4 main_v5
  let main_c_1 : IVec S_ 1 := constantI S_ 1 1#1
  let main_v7 : IVec S_ 1 := (fun x v => Host.reduce IntOp.andi x v reducesTo_S524288x36_S_d0_1 h_S_) main_v6 main_c_1
  let main_v8 : IVec S_ 1 := andi main_v3 main_v7
  main_v8
-- ==== Kernel.lean ====
abbrev S524288x36 : Shape := ⟨2, ![524288, 36]⟩
abbrev S256x128 : Shape := ⟨2, ![256, 128]⟩
abbrev S16384x36 : Shape := ⟨2, ![16384, 36]⟩
abbrev S8x128 : Shape := ⟨2, ![8, 128]⟩
abbrev S16384 : Shape := ⟨1, ![16384]⟩
abbrev S16384x1 : Shape := ⟨2, ![16384, 1]⟩
abbrev S1x16384x1 : Shape := ⟨3, ![1, 16384, 1]⟩
abbrev S1 : Shape := ⟨1, ![1]⟩
abbrev S1x1x1 : Shape := ⟨3, ![1, 1, 1]⟩
abbrev S_ : Shape := ⟨0, ![]⟩

abbrev nBuf : Space → Nat
  | .hbm => 10
  | .vmem => 6
  | .smem => 0
  | _ => 0

abbrev bufTy : (tb : Table) → Fin (tcTables nBuf tb) → BufTy
  | .hbm, ⟨0, _⟩ => ⟨S524288x36, .f32⟩
  | .hbm, ⟨1, _⟩ => ⟨S524288x36, .f32⟩
  | .hbm, ⟨2, _⟩ => ⟨S256x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S1, .f32⟩
  | .local _ .vmem, ⟨0, _⟩ => ⟨S16384x36, .f32⟩
  | .local _ .vmem, ⟨1, _⟩ => ⟨S16384x36, .f32⟩
  | .local _ .vmem, ⟨2, _⟩ => ⟨S16384x36, .f32⟩
  | .local _ .vmem, ⟨3, _⟩ => ⟨S16384x36, .f32⟩
  | .local _ .vmem, ⟨4, _⟩ => ⟨S8x128, .f32⟩
  | .local _ .vmem, ⟨5, _⟩ => ⟨S8x128, .f32⟩
  | _, _ => ⟨S524288x36, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x36 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16384x36 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S16384x36_S16384x36_0_0 : ∀ a, (![0, 0] : Fin 2 → Nat) a + S16384x36.size a ≤ S16384x36.size a
  h_S16384x36 : 0 < S16384x36.numel
  reduces_S16384x36_S16384 : S16384x36.Reduces [1] S16384
  shapeCasts_S16384_S16384x1 : S16384.ShapeCasts S16384x1
  shapeCasts_S16384x1_S1x16384x1 : S16384x1.ShapeCasts S1x16384x1
  reduces_S1x16384x1_S1 : S1x16384x1.Reduces [1, 2] S1
  shapeCasts_S1_S1x1x1 : S1.ShapeCasts S1x1x1
  inpos_S1x1x1_p0_0_0 : ∀ a, (![0, 0, 0] : Fin 3 → Nat) a < S1x1x1.size a
  inb_S8x128_S8x128_0_0 : ∀ a, (![0, 0] : Fin 2 → Nat) a + S8x128.size a ≤ S8x128.size a
  h_S8x128 : 0 < S8x128.numel
  reducesTo_S256x128_S_d0_1 : S256x128.ReducesTo [0, 1] S_
  h_S_ : 0 < S_.numel
  shapeCasts_S_S1 : S_.ShapeCasts S1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x36.size a ≤ S524288x36.size a
  hwx0_0 : ∀ i : grid0.Coords, EltTy.bits .f32 = 32 ∨ (Rect.block (s := S524288x36) S16384x36.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16384x36.size a ≤ S524288x36.size a
  hwx0_1 : ∀ i : grid0.Coords, EltTy.bits .f32 = 32 ∨ (Rect.block (s := S524288x36) S16384x36.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S256x128.size a
  hwx0_2 : ∀ i : grid0.Coords, EltTy.bits .f32 = 32 ∨ (Rect.block (s := S256x128) S8x128.size (cc0_transform_2 i) (hinb0_2 i)).WholeWords (EltTy.packing .f32)

variable [Facts₀]

abbrev win0_0 : Pipeline.Window sig grid0 :=
  Pipeline.Window.ofSpec (Memref.whole main_arg0) S16384x36.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16384x36.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S524288x36 : Shape := ⟨2, ![524288, 36]⟩
abbrev S_ : Shape := ⟨0, ![]⟩
abbrev S524288 : Shape := ⟨1, ![524288]⟩
abbrev S1 : Shape := ⟨1, ![1]⟩

abbrev nBuf : Space → Nat
  | .hbm => 15
  | .vmem => 0
  | .smem => 0
  | _ => 0

abbrev bufTy : (tb : Table) → Fin (tcTables nBuf tb) → BufTy
  | .hbm, ⟨0, _⟩ => ⟨S524288x36, .f32⟩
  | .hbm, ⟨1, _⟩ => ⟨S524288x36, .f32⟩
  | .hbm, ⟨2, _⟩ => ⟨S524288x36, .f32⟩
  | .hbm, ⟨3, _⟩ => ⟨S_, .f32⟩
  | .hbm, ⟨4, _⟩ => ⟨S524288, .f32⟩
  | .hbm, ⟨5, _⟩ => ⟨S524288x36, .f32⟩
  | .hbm, ⟨6, _⟩ => ⟨S_, .f32⟩
  | .hbm, ⟨7, _⟩ => ⟨S524288, .f32⟩
  | .hbm, ⟨8, _⟩ => ⟨S524288, .f32⟩
  | .hbm, ⟨9, _⟩ => ⟨S524288, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S1, .f32⟩
  | _, _ => ⟨S524288x36, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  reducesTo_S524288x36_S524288_d1 : S524288x36.ReducesTo [1] S524288
  h_S_ : 0 < S_.numel
  reducesTo_S524288_S_d0 : S524288.ReducesTo [0] S_
  shapeCasts_S_S1 : S_.ShapeCasts S1

variable [Facts₀]

class Facts : Prop extends Facts₀ where

variable [Facts]
-- ==== Proof.Spec.lean ====
/-
  The quantity both programs compute, and the one law that joins their two arrangements of it.

  For two arrays `p`, `g` of 524288 rows of 36 entries, row `r` contributes
  `log ((∑ₖ max (p r k) (g r k)) / (∑ₖ min (p r k) (g r k)))`, and the result is the sum of the rows' contributions
  divided by 524288. One side sums the 524288 contributions directly. The other cuts the rows into 32 blocks of 16384,
  sums each block, writes block `t`'s sum into every entry of the `t`-th 8 × 128 tile of a 256 × 128 array, sums that whole
  array, and divides by 1024 before dividing by 524288. Summing 1024 copies of each block sum is 1024 times the sum
  of the block sums — in any additive commutative monoid, so on the extended reals too, infinities included — and dividing
  1024 times an extended real by the real 1024 gives it back (division by a nonzero real is multiplication by its
  reciprocal, at the infinities as well). No finiteness of the inputs is used.
-/
import Idealize.ShloMosaic.PureOps.Ideal
import Idealize.ShloMosaic.PureOps.Ideal.Laws
import Idealize.ShloMosaic.Lib.ValueIdx

noncomputable section

namespace Cert.MeanLogRatio

open Idealize.ShloMosaic Idealize.ShloMosaic.ValueIdx

/-- The two arguments' shape: 524288 rows of 36 entries. -/
abbrev SRows : Shape := ⟨2, ![524288, 36]⟩
/-- The array of partial sums: 32 tiles of 8 × 128 entries, stacked. -/
abbrev STiles : Shape := ⟨2, ![256, 128]⟩

/-- Row `r`'s contribution: the logarithm of the row's sum of entrywise maxima over its sum of entrywise minima. -/
def rowLog (p g : SRows.Idx → EReal) (r : Fin 524288) : EReal :=
  Ideal.log (Ideal.div (∑ k : Fin 36, max (p (ix2 r k)) (g (ix2 r k))) (∑ k : Fin 36, min (p (ix2 r k)) (g (ix2 r k))))

/-- The result: the rows' contributions summed and divided by the number of rows (the literal is 524288.0). -/
def meanLog (p g : SRows.Idx → EReal) : EReal :=
  Ideal.div (∑ r : Fin 524288, rowLog p g r) (Ideal.ofBits .f32 0x49000000#32)

/-- Row `q` of block `t` is row `16384 t + q` of the whole array. -/
def rowOf (t : Fin 32) (q : Fin 16384) : Fin 524288 := ⟨t.val * 16384 + q.val, by have := t.isLt; have := q.isLt; omega⟩

/-- The sum of block `t`'s 16384 contributions. -/
def blockSum (p g : SRows.Idx → EReal) (t : Fin 32) : EReal := ∑ q : Fin 16384, rowLog p g (rowOf t q)

/-- Row `a` of the 256 × 128 array lies in tile `a / 8`. -/
def tileOf (a : Fin 256) : Fin 32 := ⟨a.val / 8, by have := a.isLt; omega⟩

/-- The array of partial sums: every entry of tile `t` holds block `t`'s sum. -/
def tiles (p g : SRows.Idx → EReal) : STiles.Idx → EReal := fun i => blockSum p g (tileOf (i 0))

/-- The 32 blocks of 16384 rows are the 524288 rows: a sum block by block is the sum over all rows. -/
theorem sum_rowOf {M : Type*} [AddCommMonoid M] (f : Fin 524288 → M) :
    ∑ t : Fin 32, ∑ q : Fin 16384, f (rowOf t q) = ∑ r : Fin 524288, f r := by
  refine (Fintype.sum_prod_type' fun t q => f (rowOf t q)).symm.trans ?_
  refine Fintype.sum_equiv (finProdFinEquiv (m := 32) (n := 16384)) _ _ fun x => congrArg f (Fin.ext ?_)
  show x.1.val * 16384 + x.2.val = x.2.val + 16384 * x.1.val
  omega

/-- Each of the 32 tiles has 8 rows: a sum over the 256 rows of a function of the row's tile is 8 times the sum over the tiles. -/
theorem sum_tileOf {M : Type*} [AddCommMonoid M] (B : Fin 32 → M) :
    ∑ a : Fin 256, B (tileOf a) = 8 • ∑ t : Fin 32, B t := by
  have h : ∑ x : Fin 32 × Fin 8, B x.1 = ∑ a : Fin 256, B (tileOf a) :=
    Fintype.sum_equiv (finProdFinEquiv (m := 32) (n := 8)) _ _ fun x => congrArg B (Fin.ext (by
      show x.1.val = (x.2.val + 8 * x.1.val) / 8
      have := x.2.isLt; omega))
  rw [← h, Fintype.sum_prod_type, Finset.smul_sum]
  simp only [Finset.sum_const, Finset.card_univ, Fintype.card_fin]

/-- Summing the array of partial sums counts every block sum 1024 times. -/
theorem sum_tiles (p g : SRows.Idx → EReal) :
    ∑ i : STiles.Idx, tiles p g i = 1024 • ∑ t : Fin 32, blockSum p g t := by
  rw [sum_idx2]
  show ∑ a : Fin 256, ∑ _b : Fin 128, blockSum p g (tileOf a) = _
  simp only [Finset.sum_const, Finset.card_univ, Fintype.card_fin]
  rw [← Finset.smul_sum, sum_tileOf, smul_smul]
  norm_num

/-- The literal 1024.0 denotes the real 1024. -/
theorem ofBits_1024 : Ideal.ofBits .f32 0x44800000#32 = ((1024 : ℝ) : EReal) := by
  simp [Ideal.ofBits, Ideal.ieee, -EReal.coe_mul]; norm_num

/-- 1024 copies of an extended real, divided by 1024, is that extended real — at `⊤` and `⊥` as well. -/
theorem div_nsmul_1024 (S : EReal) : Ideal.div ((1024 : ℕ) • S) (Ideal.ofBits .f32 0x44800000#32) = S := by
  rw [ofBits_1024, Ideal.div_coe (by norm_num), EReal.nsmul_eq_mul, mul_comm _ S, mul_assoc]
  have h : ((1024 : ℕ) : EReal) * (((1 / 1024 : ℝ)) : EReal) = 1 := by
    rw [show ((1024 : ℕ) : EReal) = ((1024 : ℝ) : EReal) from by norm_cast, ← EReal.coe_mul]
    norm_num
  rw [h, mul_one]

/-- THE LAW: the whole array of partial sums, summed from the zero initial value, divided by 1024 and then by 524288, is the
    mean of the rows' contributions. -/
theorem mean_of_tiles (p g : SRows.Idx → EReal) :
    Ideal.div (Ideal.div (Ideal.ofBits .f32 0x00000000#32 + ∑ i : STiles.Idx, tiles p g i) (Ideal.ofBits .f32 0x44800000#32))
      (Ideal.ofBits .f32 0x49000000#32) = meanLog p g := by
  rw [Ideal.ofBits_zero_f32, zero_add, sum_tiles, div_nsmul_1024]
  unfold meanLog blockSum
  rw [sum_rowOf]

end Cert.MeanLogRatio

end
-- ==== Proof.RefMean.lean ====
/-
  The reference's result is the mean of the rows' contributions.

  The host program takes the entrywise maximum and minimum of the two arrays, sums each over a row's 36 entries
  (from a zero initial value), divides the two row sums, takes the logarithm, sums the 524288 logarithms (again from
  zero) and divides by 524288: read one operation at a time this is `meanLog` of the two arrays, with the zero
  initial values dropped.
-/
import proofs.«161767_j37649683317009_2_alg».proof.Proof.Gen.ReferenceIdeal.Read
import proofs.«161767_j37649683317009_2_alg».proof.Proof.Spec

noncomputable section

namespace Cert.ReferenceIdeal.RefValue

open Cert.ReferenceIdeal Cert.ReferenceIdeal.Read Idealize.ShloMosaic Idealize.ShloMosaic.ValueIdx Cert.MeanLogRatio

/-- An index of the vector of 524288 row values is its one coordinate. -/
def rowEquiv : S524288.Idx ≃ Fin 524288 where
  toFun i := i 0
  invFun r := ix1 r
  left_inv i := (eq_ix1 i).symm
  right_inv _ := rfl

/-- The entry the first row sum reads at row `r`, summand `k`, is entry `(r, k)`. -/
theorem idx_max (r : Fin 524288) (k : Fin 36) : idx_main_v1 (ix1 r) k = ix2 r k :=
  funext fun a => Fin.ext (by match a with | ⟨0, _⟩ => rfl | ⟨1, _⟩ => rfl)
/-- The entry the second row sum reads at row `r`, summand `k`, is entry `(r, k)`. -/
theorem idx_min (r : Fin 524288) (k : Fin 36) : idx_main_v3 (ix1 r) k = ix2 r k :=
  funext fun a => Fin.ext (by match a with | ⟨0, _⟩ => rfl | ⟨1, _⟩ => rfl)

/-- The reference's logarithm at row `r` is that row's contribution. -/
theorem log_row (x0 x1 : (⟨S524288x36, .f32⟩ : BufTy).Contents (Elt Ideal)) (r : Fin 524288) :
    val_main_v5 (F := Ideal) x0 x1 (ix1 r) = rowLog x0 x1 r := by
  rw [val_main_v5_apply, val_main_v4_apply, val_main_v1_apply, val_main_v3_apply]
  simp only [val_main_v0_apply, val_main_v2_apply, val_main_cst_apply, val_main_cst_0_apply, Ideal.hostUnary_log_def,
    Ideal.hostDivf_def, Ideal.maximumf_def, Ideal.minimumf_def, Ideal.ofBits_def, Ideal.ofBits_zero_f32, zero_add,
    idx_max, idx_min]
  unfold rowLog
  rfl

/-- The reference's scalar, before its final reshape, is the mean of the rows' contributions. -/
theorem scalar_eq (x0 x1 : (⟨S524288x36, .f32⟩ : BufTy).Contents (Elt Ideal)) (i : S_.Idx) :
    val_main_v7 (F := Ideal) x0 x1 i = meanLog x0 x1 := by
  rw [val_main_v7_apply, val_main_v6_apply]
  simp only [val_main_cst_1_apply, val_main_cst_2_apply, Ideal.hostDivf_def, Ideal.ofBits_def, Ideal.ofBits_zero_f32, zero_add]
  have hsum : ∑ j : S524288.Idx, val_main_v5 (F := Ideal) x0 x1 j = ∑ r : Fin 524288, rowLog x0 x1 r :=
    Fintype.sum_equiv rowEquiv _ _ fun j =>
      (congrArg (val_main_v5 (F := Ideal) x0 x1) (eq_ix1 j)).trans (log_row x0 x1 (j 0))
  rw [hsum]
  unfold meanLog
  rfl

/-- The reference's result: the one-entry vector holding the mean. -/
theorem result_eq (x0 x1 : (⟨S524288x36, .f32⟩ : BufTy).Contents (Elt Ideal)) :
    val_main_v8 (F := Ideal) x0 x1 = fun _ => meanLog x0 x1 := by
  funext j
  unfold val_main_v8 shapeCast
  exact scalar_eq x0 x1 _

end Cert.ReferenceIdeal.RefValue

end
-- ==== Proof.LibColumn.lean ====
/-
  A column of row values, as a sum along the rows that keeps a unit axis lays it out: a vector of `a` values recast as
  an `[a, 1]` column, and such a column broadcast along its unit axis to an `[a, b]` matrix — each read at an index
  given by its coordinates.
-/
import Idealize.ShloMosaic.Lib.Pipeline.Value
import Idealize.ShloMosaic.Lib.ValueIdx

namespace Cert.LibColumn

open Idealize.ShloMosaic Idealize.ShloMosaic.ValueIdx

variable {α : Type}

/-- An `[a]` vector cast to an `[a, 1]` column reads, at `(i, u)`, the operand at `i`, whatever the unit coordinate `u`:
    both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.BodyValue.lean ====
/-
  What the kernel body computes from its two loaded blocks.

  A block is 16384 rows of 36 entries of each argument. The body takes the entrywise maximum and minimum of the two
  blocks, sums each along a row (kept as a 16384 × 1 column), divides the two columns, takes the logarithm, and sums the
  16384 logarithms (the column recast 1 × 16384 × 1 and reduced over its two long axes into one entry, recast 1 × 1 × 1 and
  extracted); that one number is then written to every entry of the 8 × 128 output tile. So every entry of the tile is
  the sum over the block's rows `q` of `log ((∑ₖ max) / (∑ₖ min))` of row `q`.
-/
import proofs.«161767_j37649683317009_2_alg».proof.Proof.Gen.KernelIdeal.Skeleton
import proofs.«161767_j37649683317009_2_alg».proof.Proof.LibColumn
import Idealize.ShloMosaic.Lib.Pipeline.Value
import Idealize.ShloMosaic.Lib.ValueIdx
import Idealize.ShloMosaic.PureOps.Ideal.Laws

noncomputable section

namespace Cert.KernelIdeal.BodyValue

open Cert.KernelIdeal Cert.KernelIdeal.Gen Idealize.ShloMosaic Idealize.ShloMosaic.ValueIdx

variable [Cert.KernelIdeal.Facts]

/-- Row `q` of a block's contribution: the logarithm of its sum of maxima over its sum of minima. -/
def blockLog (x y : S16384x36.Idx → EReal) (q : Fin 16384) : EReal :=
  Ideal.log (Ideal.div (∑ k : Fin 36, max (x (ix2 q k)) (y (ix2 q k))) (∑ k : Fin 36, min (x (ix2 q k)) (y (ix2 q k))))

/-- A block's row sums, kept as a column: the entry of row `q` is the sum of that row's 36 entries. -/
theorem rowSums_col_apply (v : FVec Ideal S16384x36 .f32) (h : S16384x36.Reduces [1] S16384) (hφ : FKind.Formats .f32)
    (hacc : (0x00000000#32 : BitVec 32) = FKind.add.neutral .f32 hφ) (hc : S16384.ShapeCasts S16384x1) (q : Fin 16384) (u : Fin 1) :
    shapeCast S16384x1 (multiReduction .add [1] S16384 v 0x00000000#32 h hφ hacc) hc (ix2 q u) = ∑ k : Fin 36, v (ix2 q k) :=
  (Cert.LibColumn.shapeCast_a_a1_apply _ hc q u).trans
    ((Ideal.multiReduction_add_single v _ h hφ hacc (ix1 q)).trans
      (Finset.sum_congr rfl fun k _ => congrArg v (funext fun a => Fin.ext (by match a with | ⟨0, _⟩ => rfl | ⟨1, _⟩ => rfl))))

/-- The row sums of the entrywise maxima of two blocks, as a column. -/
theorem rowMax_col_apply (x0 x1 : FVec Ideal S16384x36 .f32) (h : S16384x36.Reduces [1] S16384) (hφ : FKind.Formats .f32)
    (hacc : (0x00000000#32 : BitVec 32) = FKind.add.neutral .f32 hφ) (hc : S16384.ShapeCasts S16384x1) (q : Fin 16384) (u : Fin 1) :
    shapeCast S16384x1 (multiReduction (F := Ideal) .add [1] S16384 (maximumf (F := Ideal) x0 x1) 0x00000000#32 h hφ hacc) hc (ix2 q u)
      = ∑ k : Fin 36, max (x0 (ix2 q k)) (x1 (ix2 q k)) :=
  (rowSums_col_apply (maximumf (F := Ideal) x0 x1) h hφ hacc hc q u).trans (Finset.sum_congr rfl fun _ _ => rfl)

/-- The row sums of the entrywise minima of two blocks, as a column. -/
theorem rowMin_col_apply (x0 x1 : FVec Ideal S16384x36 .f32) (h : S16384x36.Reduces [1] S16384) (hφ : FKind.Formats .f32)
    (hacc : (0x00000000#32 : BitVec 32) = FKind.add.neutral .f32 hφ) (hc : S16384.ShapeCasts S16384x1) (q : Fin 16384) (u : Fin 1) :
    shapeCast S16384x1 (multiReduction (F := Ideal) .add [1] S16384 (minimumf (F := Ideal) x0 x1) 0x00000000#32 h hφ hacc) hc (ix2 q u)
      = ∑ k : Fin 36, min (x0 (ix2 q k)) (x1 (ix2 q k)) :=
  (rowSums_col_apply (minimumf (F := Ideal) x0 x1) h hφ hacc hc q u).trans (Finset.sum_congr rfl fun _ _ => rfl)

/-- The logarithm of a quotient of two columns, entry by entry. -/
theorem log_div_apply (a b : FVec Ideal S16384x1 .f32) (i : S16384x1.Idx) :
    log (F := Ideal) (divf (F := Ideal) a b) i = Ideal.log (Ideal.div (a i) (b i)) := rfl

/-- An index of the 1 × 16384 × 1 recast of a column is its middle coordinate. -/
def midEquiv : S1x16384x1.Idx ≃ Fin 16384 where
  toFun i := i 1
  invFun q := ix3 (0 : Fin 1) q (0 : Fin 1)
  left_inv i := by
    funext a
    match a with
    | ⟨0, _⟩ => exact Fin.ext (by have h := (i 0).isLt; show 0 = (i 0).val; simp at h; omega)
    | ⟨1, _⟩ => rfl
    | ⟨2, _⟩ => exact Fin.ext (by have h := (i 2).isLt; show 0 = (i 2).val; simp at h; omega)
  right_inv _ := rfl

/-- A column recast 1 × 16384 × 1 reads, at `(0, q, 0)`, the column's entry of row `q`. -/
theorem col_recast_apply (w : FVec Ideal S16384x1 .f32) (h1 : S16384x1.ShapeCasts S1x16384x1) (q : Fin 16384) :
    shapeCast S1x16384x1 w h1 (ix3 (0 : Fin 1) q (0 : Fin 1)) = w (ix2 q (0 : Fin 1)) :=
  shapeCast_apply w h1 _ _ (by
    rw [Shape.rowMajor_val_two, Shape.rowMajor_val_three]
    show q.val * 1 + 0 = (0 * 16384 + q.val) * 1 + 0
    omega)

/-- The column's total, as the body takes it: recast, reduced over the two long axes into one entry, recast again and
    extracted — the sum of the column's 16384 entries. -/
theorem col_total (w : FVec Ideal S16384x1 .f32) (h1 : S16384x1.ShapeCasts S1x16384x1) (h2 : S1x16384x1.Reduces [1, 2] S1)
    (hφ : FKind.Formats .f32) (hacc : (0x00000000#32 : BitVec 32) = FKind.add.neutral .f32 hφ) (h3 : S1.ShapeCasts S1x1x1)
    (h4 : ∀ a, (![0, 0, 0] : Fin 3 → Nat) a < S1x1x1.size a) :
    extractAt ![0, 0, 0] (shapeCast S1x1x1 (multiReduction .add [1, 2] S1 (shapeCast S1x16384x1 w h1) 0x00000000#32 h2 hφ hacc) h3) h4
      = ∑ q : Fin 16384, w (ix2 q (0 : Fin 1)) := by
  unfold extractAt
  refine (shapeCast_apply _ h3 _ (ix1 (0 : Fin 1)) (by
    rw [Shape.rowMajor_val_one, Shape.rowMajor_val_three]; rfl)).trans ?_
  refine (Ideal.multiReduction_add_total _ _ h2 (fun b => by match b with | ⟨0, _⟩ => rfl) hφ hacc (ix1 (0 : Fin 1))).trans ?_
  refine Fintype.sum_equiv midEquiv _ _ fun i => ?_
  refine (congrArg (shapeCast S1x16384x1 w h1) (midEquiv.left_inv i).symm).trans ?_
  exact col_recast_apply w h1 (i 1)

/-- THE PAYLOAD at any entry of the output tile: the sum over the block's rows of their contributions. -/
theorem pay_apply (x0 x1 : Vec Ideal S16384x36 .f32) (j : S8x128.Idx) :
    k0_pay1 (F := Ideal) x0 x1 j = ∑ q : Fin 16384, blockLog x0 x1 q := by
  unfold k0_pay1
  refine (broadcast_apply _ j).trans ?_
  refine (col_total _ _ _ _ _ _ _).trans (Finset.sum_congr rfl fun q _ => ?_)
  refine (log_div_apply _ _ _).trans ?_
  unfold blockLog
  refine congrArg₂ (fun a b : EReal => Ideal.log (Ideal.div a b)) ?_ ?_
  · exact rowMax_col_apply x0 x1 _ _ _ _ q 0
  · exact rowMin_col_apply x0 x1 _ _ _ _ q 0

end Cert.KernelIdeal.BodyValue

end
-- ==== Proof.RegionValue.lean ====
/-
  What the array of partial sums holds when the kernel's region ends.

  Grid point `t` (of 32) loads rows `16384 t … 16384 t + 16383` of each argument and writes back rows `8 t … 8 t + 7` of the
  256 × 128 output, every entry holding the sum of that block's contributions. So what point `t` writes back is block `t` of
  ONE function of the arguments — `tiles`: the entry in row `a` holds the sum of block `a / 8` — and the 32 write-backs
  cover the whole array (row `a` is written by point `a / 8`): the array ends holding `tiles` of the two arguments.
-/
import proofs.«161767_j37649683317009_2_alg».proof.Proof.Gen.KernelIdeal.Frame
import proofs.«161767_j37649683317009_2_alg».proof.Proof.BodyValue
import proofs.«161767_j37649683317009_2_alg».proof.Proof.Spec
import Idealize.ShloMosaic.Lib.Pipeline.Value

noncomputable section

namespace Cert.KernelIdeal.RegionValue

open Cert.KernelIdeal Cert.KernelIdeal.Gen Idealize.ShloMosaic Idealize.ShloMosaic.TcCoe Idealize.ShloMosaic.ValueIdx
open Idealize.SL.Sem Cert.MeanLogRatio
open Idealize.ShloMosaic.Pipeline (Dat)

variable (m : (ℓ : Loc nD τ sig) → Buf (Elt Ideal) ℓ)

theorem origin2 : (![0, 0] : Fin 2 → Nat) = fun _ => 0 := funext fun a => by fin_cases a <;> rfl

/-- The printed index maps, decided over the 32 grid points: each window's block row index at point `t` is `t`, its block
    column index `0`. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- A grid point as a block number below 32. -/
def blockOf (t : Fin cfg0.N) : Fin 32 := ⟨t.val, lt_of_lt_of_eq t.isLt N_0⟩

/-- A block whose row `q` is row `16384 T + q` of the whole arrays sums to block `T`'s sum. -/
theorem block_rows (x0 x1 : S16384x36.Idx → EReal) (p g : SRows.Idx → EReal) (T : Fin 32)
    (h0 : ∀ (q : Fin 16384) (k : Fin 36), x0 (ix2 q k) = p (ix2 (rowOf T q) k))
    (h1 : ∀ (q : Fin 16384) (k : Fin 36), x1 (ix2 q k) = g (ix2 (rowOf T q) k)) :
    ∑ q : Fin 16384, BodyValue.blockLog x0 x1 q = blockSum p g T := by
  unfold blockSum BodyValue.blockLog rowLog
  simp only [h0, h1]

/-- What point `t` writes back is block `t` of any array `G` whose entry in row `a` is the sum of block `a / 8` of the argument
    arrays as the region finds them. -/
theorem flushed_eq_of (c : Dev nD) (t : Fin cfg0.N) (G : S256x128.Idx → EReal)
    (hG : ∀ i : S256x128.Idx, G i = blockSum (V m c main_arg0) (V m c main_arg1) (tileOf (i 0))) :
    (dats m 0 c).flushed 2 t = ((cfg0.win 2).blk t).view.read (Elt Ideal) G := by
  show (cfg0.win 2).cut (grid0.coords t) ((dats m 0 c).after 2 t) = _
  rw [after0_2]
  unfold out0_2
  rw [View.canon_unit_zero origin2]
  simp only [View.ld_unit_zero (S := S16384x36) origin2]
  obtain ⟨e00, e01, e10, e11, e20, e21⟩ := index_facts t
  funext j
  show k0_pay1 (iblk m c 0 t) (iblk m c 1 t) ((win0 2).xinj (grid0.coords t) j) = G (((cfg0.win 2).blk t).view.emb j)
  rw [hG]
  refine (BodyValue.pay_apply (iblk m c 0 t) (iblk m c 1 t) _).trans ?_
  refine (block_rows _ _ (V m c main_arg0) (V m c main_arg1) (blockOf t) (fun q k => ?_) (fun q k => ?_)).trans ?_
  · show V m c main_arg0 (((cfg0.win 0).blk t).view.emb (ix2 q k)) = V m c main_arg0 (ix2 (rowOf (blockOf t) q) k)
    refine congrArg (V m c main_arg0) (funext fun a => Fin.ext ?_)
    match a with
    | ⟨0, _⟩ => show win0_0.index t (0 : Fin 2) * 16384 + 1 * q.val = t.val * 16384 + q.val; omega
    | ⟨1, _⟩ => show win0_0.index t (1 : Fin 2) * 36 + 1 * k.val = k.val; omega
  · show V m c main_arg1 (((cfg0.win 1).blk t).view.emb (ix2 q k)) = V m c main_arg1 (ix2 (rowOf (blockOf t) q) k)
    refine congrArg (V m c main_arg1) (funext fun a => Fin.ext ?_)
    match a with
    | ⟨0, _⟩ => show win0_1.index t (0 : Fin 2) * 16384 + 1 * q.val = t.val * 16384 + q.val; omega
    | ⟨1, _⟩ => show win0_1.index t (1 : Fin 2) * 36 + 1 * k.val = k.val; omega
  · refine congrArg (blockSum (V m c main_arg0) (V m c main_arg1)) (Fin.ext ?_)
    show t.val = (win0_2.index t (0 : Fin 2) * 8 + 1 * (j 0).val) / 8
    have hj : (j 0).val < 8 := (j 0).isLt
    omega

/-- WHAT POINT `t` WRITES BACK is block `t` of `tiles` of the argument arrays as the region finds them. -/
theorem flushed_eq (c : Dev nD) (t : Fin cfg0.N) :
    (dats m 0 c).flushed 2 t = ((cfg0.win 2).blk t).view.read (Elt Ideal) (tiles (V m c main_arg0) (V m c main_arg1)) :=
  flushed_eq_of m c t _ fun _ => rfl

/-- An index of the array is in point `t`'s block iff each coordinate is in the block's range on its axis. -/
theorem mem_blk (t : Fin cfg0.N) (i : S256x128.Idx) :
    i ∈ ((cfg0.win 2).blk t).view.set ↔ ∀ a : Fin 2, win0_2.index t a * S8x128.size a ≤ (i a).val ∧ (i a).val < win0_2.index t a * S8x128.size a + S8x128.size a := by
  show i ∈ ((View.whole main_v0).slice (win0_2.rect t)).set ↔ _
  rw [View.set_slice_whole, Rect.mem_set_unit]
  exact Iff.rfl

/-- Every entry is written back by some point: row `a` by point `a / 8`. -/
theorem cover (i : S256x128.Idx) : ∃ t : Fin cfg0.N, (cfg0.win 2).flush t = true ∧ i ∈ ((cfg0.win 2).blk t).view.set := by
  have hi0 : (i 0).val < 256 := (i 0).isLt
  have hi1 : (i 1).val < 128 := (i 1).isLt
  have hN : cfg0.N = 32 := N_0
  let t : Fin cfg0.N := ⟨(i 0).val / 8, by rw [hN]; omega⟩
  obtain ⟨-, -, -, -, e20, e21⟩ := index_facts t
  have ht : t.val = (i 0).val / 8 := rfl
  refine ⟨t, flush0_2 t, ?_⟩
  rw [mem_blk]
  intro a
  match a with
  | ⟨0, _⟩ => show win0_2.index t (0 : Fin 2) * 8 ≤ (i 0).val ∧ (i 0).val < win0_2.index t (0 : Fin 2) * 8 + 8; omega
  | ⟨1, _⟩ => show win0_2.index t (1 : Fin 2) * 128 ≤ (i 1).val ∧ (i 1).val < win0_2.index t (1 : Fin 2) * 128 + 128; omega

/-- THE ARRAY OF PARTIAL SUMS after the region: `tiles` of the two arguments. -/
theorem final (c : Dev nD) : (dats m 0 c).arrAt 2 cfg0.N = tiles (V m c main_arg0) (V m c main_arg1) :=
  (dats m 0 c).arrAt_eq_of_cover 2 _ (fun t _ => flushed_eq m c t) cover

end Cert.KernelIdeal.RegionValue

end
-- ==== Proof.TailValue.lean ====
/-
  The host operations after the region, and the kernel's result.

  After the region the host sums the whole 256 × 128 array of partial sums (from a zero initial value), divides by 1024,
  divides by 524288, and reshapes the scalar to a one-entry vector. With the array holding `tiles` of the two arguments
  this is the law of the specification: the mean of the rows' contributions.
-/
import proofs.«161767_j37649683317009_2_alg».proof.Proof.RegionValue
import Idealize.ShloMosaic.Lib.StableHlo.Run
import Idealize.ShloMosaic.Lib.Pipeline.FrameSuffix

noncomputable section

namespace Cert.KernelIdeal.TailValue

open Cert.KernelIdeal Cert.KernelIdeal.Gen Idealize.ShloMosaic Idealize.ShloMosaic.TcCoe Idealize.ShloMosaic.ValueIdx
open Idealize.SL.Sem Cert.MeanLogRatio Idealize.ShloMosaic.StableHlo

variable (m : (ℓ : Loc nD τ sig) → Buf (Elt Ideal) ℓ)

/-- The host's sum of the whole array, from the zero initial value. -/
theorem total_apply (G : FVec Ideal S256x128 .f32) (k : S_.Idx) :
    Host.reduceAdd (F := Ideal) G (constant (F := Ideal) S_ .f32 0x00000000#32) reducesTo_S256x128_S_d0_1 h_S_ k
      = Ideal.ofBits .f32 0x00000000#32 + ∑ i : S256x128.Idx, G i := by
  simp only [Host.reduceAdd, Ideal.hostReduceAdd_def]
  exact Ideal.hostReduceAdd_total reducesTo_S256x128_S_d0_1 (fun b => b.elim0) G _ k

/-- The host's scalar from any array `G` of partial sums: its total divided by 1024 and then by 524288. -/
theorem tail_apply (G : FVec Ideal S256x128 .f32) (k : S_.Idx) :
    Host.divf (F := Ideal) (Host.divf (F := Ideal)
        (Host.reduceAdd (F := Ideal) G (constant (F := Ideal) S_ .f32 0x00000000#32) reducesTo_S256x128_S_d0_1 h_S_)
        (constant (F := Ideal) S_ .f32 0x44800000#32)) (constant (F := Ideal) S_ .f32 0x49000000#32) k
      = Ideal.div (Ideal.div (Ideal.ofBits .f32 0x00000000#32 + ∑ i : S256x128.Idx, G i) (Ideal.ofBits .f32 0x44800000#32))
          (Ideal.ofBits .f32 0x49000000#32) := by
  rw [← total_apply G k]
  rfl

/-- THE KERNEL'S RESULT: the buffer the program returns, after the region and the host operations that follow it, is the
    one-entry vector holding the mean of the rows' contributions of the argument arrays as the region finds them. -/
theorem result_eq (c : Dev nD) :
    Pipeline.afterTail₀ cfgs (dats m) 0 (V0 m) [hostOps1] c main_v4
      = fun _ => meanLog (V m c main_arg0) (V m c main_arg1) := by
  unfold Pipeline.afterTail₀
  show StableHlo.after hostOps1 _ (Proc.devRef .tc main_v4) = _
  after_results
  have hW : Pipeline.withArrays (cfgs 0).spec c (V0 m c) (fun w => (dats m 0 c).arrAt w (cfgs 0).N) (Proc.tc.devRef main_v0)
      = tiles (V m c main_arg0) (V m c main_arg1) :=
    (Pipeline.withArrays_arr spec0 launch0.win.arr_inj c _ _ 2).trans (RegionValue.final m c)
  rw [hW]
  funext i
  exact (tail_apply (tiles (V m c main_arg0) (V m c main_arg1)) _).trans (mean_of_tiles (V m c main_arg0) (V m c main_arg1))

end Cert.KernelIdeal.TailValue

end
-- ==== Proof.KernelRun.lean ====
/-
  The idealized kernel's run, read: every weakly fair execution terminates with the returned buffer holding the mean of
  the rows' contributions of the two argument arrays, and the argument arrays unchanged.

  The returned buffer is none of the region's three arrays, so the run leaves it as the host operations after the region
  compute it from the array of partial sums; each argument array is an input of the region and is never written.
-/
import proofs.«161767_j37649683317009_2_alg».proof.Proof.TailValue
import Idealize.ShloMosaic.Lib.Pipeline.Frame

noncomputable section

namespace Cert.KernelIdeal.KernelRun

open Cert.KernelIdeal Cert.KernelIdeal.Gen Idealize.ShloMosaic Idealize.ShloMosaic.TcCoe
open Idealize.SL.Sem Cert.MeanLogRatio

variable (m : (ℓ : Loc nD τ sig) → Buf (Elt Ideal) ℓ) (ρ : Dev nD → PrngReg)

/-- The returned buffer is unscoped and is no array of the region. -/
theorem result_rest : main_v4 ∈ Pipeline.restRefs sig (cfgs 0).spec :=
  Pipeline.mem_restRefs_of main_v4 rfl (by decide)

theorem run : θ_run defs (onTc (τ := τ) (main (F := Ideal))) ⟨m, fun _ => 0, ρ⟩ fun r => ∀ c : Dev nD,
      r.2.mem ((c.tc : Thread nD τ).loc main_v4)
        = (fun _ => meanLog (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v4 result_rest).trans ((TailValue.result_eq m c).trans (by rw [V_main_arg0 m c, V_main_arg1 m c])),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.KernelIdeal.KernelRun

end
-- ==== Proof.lean ====
/-
  The mean over 524288 rows of log (Σₖ max (p, g) / Σₖ min (p, g)), computed two ways, is one extended real.

  The kernel cuts the rows into 32 blocks of 16384; each grid point sums its block's logarithms and writes that one number
  into all 1024 entries of an 8 × 128 tile; the host then sums the 256 × 128 array of tiles, divides by 1024 and by 524288.
  The reference sums the 524288 logarithms and divides by 524288. Summing 1024 copies of each block sum is 1024 times the
  sum of the block sums, which is the sum over all rows; and 1024 times an extended real divided by the real 1024 is that
  extended real, at the infinities too. Nothing else separates the two programs at the ideal values — the same maxima,
  minima, row sums, quotient and logarithm, the same literals — so the equality holds for every input and the
  precondition is not used.

  The three frame claims are the generated frames (the reference's is its generated run with the result dropped); the
  idealization rewrote nothing, so `preserves` is trivial; `algebraic` puts the two runs side by side, each ending with
  the returned buffer at `fun _ => meanLog p g` of the argument arrays.
-/
import proofs.«161767_j37649683317009_2_alg».proof.Defs
import proofs.«161767_j37649683317009_2_alg».proof.Proof.Gen.Kernel
import proofs.«161767_j37649683317009_2_alg».proof.Proof.Gen.Kernel.Skeleton
import proofs.«161767_j37649683317009_2_alg».proof.Proof.Gen.Kernel.Launch
import proofs.«161767_j37649683317009_2_alg».proof.Proof.Gen.Kernel.Points
import proofs.«161767_j37649683317009_2_alg».proof.Proof.Gen.Kernel.Frame
import proofs.«161767_j37649683317009_2_alg».proof.Proof.Gen.KernelIdeal
import proofs.«161767_j37649683317009_2_alg».proof.Proof.Gen.KernelIdeal.Skeleton
import proofs.«161767_j37649683317009_2_alg».proof.Proof.Gen.KernelIdeal.Launch
import proofs.«161767_j37649683317009_2_alg».proof.Proof.Gen.KernelIdeal.Points
import proofs.«161767_j37649683317009_2_alg».proof.Proof.Gen.KernelIdeal.Frame
import proofs.«161767_j37649683317009_2_alg».proof.Proof.Gen.ReferenceIdeal
import proofs.«161767_j37649683317009_2_alg».proof.Proof.Gen.Pre_finite_inputs
import proofs.«161767_j37649683317009_2_alg».proof.Proof.Gen.ReferenceIdeal.Run
import proofs.«161767_j37649683317009_2_alg».proof.Proof.Gen.ReferenceIdeal.Read
import proofs.«161767_j37649683317009_2_alg».proof.Proof.RefMean
import proofs.«161767_j37649683317009_2_alg».proof.Proof.KernelRun
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the returned buffer holding the mean of the rows' contributions of the (agreeing) arguments. -/
theorem algebraic : Cert.algebraic_KernelIdeal_ReferenceIdeal := by
  intro m ρ m' ρ' _ hagree
  refine ⟨_, Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.result_eq, (hagree c).1, (hagree c).2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
